-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x2048x1024 : Shape := ⟨4, ![2, 8, 2048, 1024]⟩
abbrev S1024x1024 : Shape := ⟨2, ![1024, 1024]⟩
abbrev S1024 : Shape := ⟨1, ![1024]⟩
abbrev S_ : Shape := ⟨0, ![]⟩

class Facts : Prop where
  bcast_S_S2x8x2048x1024 : S_.BroadcastsInDim S2x8x2048x1024 (![] : Fin 0 → Fin S2x8x2048x1024.rank)
  reducesTo_S2x8x2048x1024_S_d0_1_2_3 : S2x8x2048x1024.ReducesTo [0, 1, 2, 3] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S2x8x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S2x8x2048x1024 .f32 := Host.absf main_arg0
  let main_cst : FVec F S_ .f32 := constant S_ .f32 0x7F800000#32
  let main_v1 : FVec F S2x8x2048x1024 .f32 := broadcastInDim S2x8x2048x1024 ![] bcast_S_S2x8x2048x1024 main_cst
  let main_v2 : IVec S2x8x2048x1024 1 := cmpf .olt main_v0 main_v1
  let main_c : IVec S_ 1 := constantI S_ 1 1#1
  let main_v3 : IVec S_ 1 := (fun x v => Host.reduce IntOp.andi x v reducesTo_S2x8x2048x1024_S_d0_1_2_3 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S2x8x2048x1024 : Shape := ⟨4, ![2, 8, 2048, 1024]⟩
abbrev S1024x1024 : Shape := ⟨2, ![1024, 1024]⟩
abbrev S1024 : Shape := ⟨1, ![1024]⟩
abbrev S32768x1024 : Shape := ⟨2, ![32768, 1024]⟩
abbrev S1x1024 : Shape := ⟨2, ![1, 1024]⟩
abbrev S512x1024 : Shape := ⟨2, ![512, 1024]⟩
abbrev S16x2048x1024 : Shape := ⟨3, ![16, 2048, 1024]⟩
abbrev S1x512x1024 : Shape := ⟨3, ![1, 512, 1024]⟩
abbrev S1x2048x1024 : Shape := ⟨3, ![1, 2048, 1024]⟩
abbrev S2048x1024 : Shape := ⟨2, ![2048, 1024]⟩
abbrev S512x2048 : Shape := ⟨2, ![512, 2048]⟩

abbrev nBuf : Space → Nat
  | .hbm => 25
  | .vmem => 22
  | .smem => 0
  | _ => 0

abbrev bufTy : (tb : Table) → Fin (tcTables nBuf tb) → BufTy
  | .hbm, ⟨0, _⟩ => ⟨S2x8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S32768x1024, .f32⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S32768x1024, .bf16⟩
  | .hbm, ⟨18, _⟩ => ⟨S32768x1024, .bf16⟩
  | .hbm, ⟨19, _⟩ => ⟨S32768x1024, .bf16⟩
  | .hbm, ⟨20, _⟩ => ⟨S16x2048x1024, .bf16⟩
  | .hbm, ⟨21, _⟩ => ⟨S16x2048x1024, .bf16⟩
  | .hbm, ⟨22, _⟩ => ⟨S16x2048x1024, .bf16⟩
  | .hbm, ⟨23, _⟩ => ⟨S16x2048x1024, .f32⟩
  | .hbm, ⟨24, _⟩ => ⟨S2x8x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x2048x1024, .bf16⟩
  | .local _ .vmem, ⟨17, _⟩ => ⟨S1x2048x1024, .bf16⟩
  | .local _ .vmem, ⟨18, _⟩ => ⟨S1x2048x1024, .bf16⟩
  | .local _ .vmem, ⟨19, _⟩ => ⟨S1x2048x1024, .bf16⟩
  | .local _ .vmem, ⟨20, _⟩ => ⟨S1x512x1024, .f32⟩
  | .local _ .vmem, ⟨21, _⟩ => ⟨S1x512x1024, .f32⟩
  | _, _ => ⟨S2x8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S2x8x2048x1024_S32768x1024 : S2x8x2048x1024.ShapeCasts S32768x1024
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S32768x1024_S16x2048x1024 : S32768x1024.ShapeCasts S16x2048x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  shapeCasts_S512x1024_S1x512x1024 : S512x1024.ShapeCasts S1x512x1024
  shapeCasts_S16x2048x1024_S2x8x2048x1024 : S16x2048x1024.ShapeCasts S2x8x2048x1024
  dot_S512x1024_S1024x1024_S512x1024_1_0_0_1_n_n_wf : DotDims.WF S512x1024 S1024x1024 S512x1024 [1] [0] [0] [1] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S32768x1024.size a
  hwx0_7 : ∀ i : grid0.Coords, EltTy.bits .bf16 = 32 ∨ (Rect.block (s := S32768x1024) S512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S32768x1024.size a
  hwx0_8 : ∀ i : grid0.Coords, EltTy.bits .bf16 = 32 ∨ (Rect.block (s := S32768x1024) S512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S32768x1024.size a
  hwx0_9 : ∀ i : grid0.Coords, EltTy.bits .bf16 = 32 ∨ (Rect.block (s := S32768x1024) S512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S16x2048x1024.size a
  hwx1_0 : ∀ i : grid1.Coords, EltTy.bits .bf16 = 32 ∨ (Rect.block (s := S16x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S16x2048x1024.size a
  hwx1_1 : ∀ i : grid1.Coords, EltTy.bits .bf16 = 32 ∨ (Rect.block (s := S16x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S16x2048x1024.size a
  hwx1_2 : ∀ i : grid1.Coords, EltTy.bits .bf16 = 32 ∨ (Rect.block (s := S16x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S16x2048x1024.size a
  hwx1_3 : ∀ i : grid1.Coords, EltTy.bits .f32 = 32 ∨ (Rect.block (s := S16x2048x1024) S1x512x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10_1) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v10_2) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v11) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x8x2048x1024 : Shape := ⟨4, ![2, 8, 2048, 1024]⟩
abbrev S1024x1024 : Shape := ⟨2, ![1024, 1024]⟩
abbrev S1024 : Shape := ⟨1, ![1024]⟩
abbrev S1x1x1x1024 : Shape := ⟨4, ![1, 1, 1, 1024]⟩
abbrev S_ : Shape := ⟨0, ![]⟩
abbrev S2x8x2048x2048 : Shape := ⟨4, ![2, 8, 2048, 2048]⟩

abbrev nBuf : Space → Nat
  | .hbm => 27
  | .vmem => 0
  | .smem => 0
  | _ => 0

abbrev bufTy : (tb : Table) → Fin (tcTables nBuf tb) → BufTy
  | .hbm, ⟨0, _⟩ => ⟨S2x8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S2x8x2048x1024, .f32⟩
  | .hbm, ⟨8, _⟩ => ⟨S1x1x1x1024, .f32⟩
  | .hbm, ⟨9, _⟩ => ⟨S2x8x2048x1024, .f32⟩
  | .hbm, ⟨10, _⟩ => ⟨S2x8x2048x1024, .f32⟩
  | .hbm, ⟨11, _⟩ => ⟨S2x8x2048x1024, .f32⟩
  | .hbm, ⟨12, _⟩ => ⟨S1x1x1x1024, .f32⟩
  | .hbm, ⟨13, _⟩ => ⟨S2x8x2048x1024, .f32⟩
  | .hbm, ⟨14, _⟩ => ⟨S2x8x2048x1024, .f32⟩
  | .hbm, ⟨15, _⟩ => ⟨S2x8x2048x1024, .f32⟩
  | .hbm, ⟨16, _⟩ => ⟨S1x1x1x1024, .f32⟩
  | .hbm, ⟨17, _⟩ => ⟨S2x8x2048x1024, .f32⟩
  | .hbm, ⟨18, _⟩ => ⟨S2x8x2048x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2x8x2048x2048, .f32⟩
  | .hbm, ⟨24, _⟩ => ⟨S2x8x2048x2048, .f32⟩
  | .hbm, ⟨25, _⟩ => ⟨S2x8x2048x2048, .f32⟩
  | .hbm, ⟨26, _⟩ => ⟨S2x8x2048x1024, .f32⟩
  | _, _ => ⟨S2x8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S1024_S1x1x1x1024_3 : S1024.BroadcastsInDim S1x1x1x1024 (![3] : Fin 1 → Fin S1x1x1x1024.rank)
  bcast_S1x1x1x1024_S2x8x2048x1024_0_1_2_3 : S1x1x1x1024.BroadcastsInDim S2x8x2048x1024 (![0, 1, 2, 3] : Fin 4 → Fin S2x8x2048x1024.rank)
  bcast_S_S2x8x2048x2048 : S_.BroadcastsInDim S2x8x2048x2048 (![] : Fin 0 → Fin S2x8x2048x2048.rank)
  dot_S2x8x2048x1024_S1024x1024_S2x8x2048x1024_3_1_012_0_n_n_wf : DotDims.WF S2x8x2048x1024 S1024x1024 S2x8x2048x1024 [3] [1] [0, 1, 2] [0] [] []
  dot_S2x8x2048x1024_S2x8x2048x1024_S2x8x2048x2048_3_3_2_2_01_01_wf : DotDims.WF S2x8x2048x1024 S2x8x2048x1024 S2x8x2048x2048 [3] [3] [2] [2] [0, 1] [0, 1]
  dot_S2x8x2048x2048_S2x8x2048x1024_S2x8x2048x1024_3_2_2_3_01_01_wf : DotDims.WF S2x8x2048x2048 S2x8x2048x1024 S2x8x2048x1024 [3] [2] [2] [3] [0, 1] [0, 1]

variable [Facts₀]

def dot_S2x8x2048x1024_S1024x1024_S2x8x2048x1024_3_1_012_0_n_n : DotDims S2x8x2048x1024 S1024x1024 S2x8x2048x1024 where
  lhsContracting := [3]
  rhsContracting := [1]
  lhsNonContracting := [0, 1, 2]
  rhsNonContracting := [0]
  lhsBatch := []
  rhsBatch := []
  wf := dot_S2x8x2048x1024_S1024x1024_S2x8x2048x1024_3_1_012_0_n_n_wf
def dot_S2x8x2048x1024_S2x8x2048x1024_S2x8x2048x2048_3_3_2_2_01_01 : DotDims S2x8x2048x1024 S2x8x2048x1024 S2x8x2048x2048 where
  lhsContracting := [3]
  rhsContracting := [3]
  lhsNonContracting := [2]
  rhsNonContracting := [2]
  lhsBatch := [0, 1]
  rhsBatch := [0, 1]
  wf := dot_S2x8x2048x1024_S2x8x2048x1024_S2x8x2048x2048_3_3_2_2_01_01_wf
def dot_S2x8x2048x2048_S2x8x2048x1024_S2x8x2048x1024_3_2_2_3_01_01 : DotDims S2x8x2048x2048 S2x8x2048x1024 S2x8x2048x1024 where
  lhsContracting := [3]
  rhsContracting := [2]
  lhsNonContracting := [2]
  rhsNonContracting := [3]
  lhsBatch := [0, 1]
  rhsBatch := [0, 1]
  wf := dot_S2x8x2048x2048_S2x8x2048x1024_S2x8x2048x1024_3_2_2_3_01_01_wf

class Facts : Prop extends Facts₀ where

variable [Facts]
-- ==== Proof.KernelRun.lean ====
/-
  The idealized kernel's run with its result named. The program is five segments: host reshapes and transposes,
  the projection launch, three host reshapes, the attention launch, one last reshape. Every weakly fair execution
  ends with each unscoped buffer at the contents the last segment leaves; here that fact is kept for the result
  buffer as well as for the seven arguments.
-/
import proofs.«143048_j40295383171639_2_alg».proof.Proof.Gen.KernelIdeal.Frame

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at what the last reshape leaves
    (the fold of the five segments over the launch memory, read at the result), and the arguments end as launched. -/
theorem run_result : θ_run defs (onTc (τ := τ) (main (F := F))) ⟨m, fun _ => 0, ρ⟩ (fun r => ∀ c : Dev nD,
      r.2.mem ((c.tc : Thread nD τ).loc main_v15) = W5 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v15 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.Attn

end
-- ==== Proof.Spec.lean ====
/-
  What both programs compute, as one function of the seven argument arrays, index by index on the extended reals.
  Three linear layers on the last axis, q = x·Wqᵀ + bq, k = x·Wkᵀ + bk, v = x·Wvᵀ + bv; then, per batch and head,
  the scores s·t ↦ (Σₑ q[s,e]·k[t,e])·c with the scale c = 2⁻⁵, and the result s·e ↦ Σₜ score[s,t]·v[t,e]
  (attention without a softmax).
-/
import Idealize.ShloMosaic.PureOps.Ideal
import Idealize.ShloMosaic.Lib.ValueIdx

noncomputable section

open scoped BigOperators

namespace Cert.Attn

open Idealize.ShloMosaic Idealize.ShloMosaic.ValueIdx

/-- The activations' shape: batch 2, heads 8, sequence 2048, model width 1024. -/
abbrev Sx : Shape := ⟨4, ![2, 8, 2048, 1024]⟩
/-- A weight matrix, output feature by input feature. -/
abbrev Sw : Shape := ⟨2, ![1024, 1024]⟩
/-- A bias vector. -/
abbrev Sb : Shape := ⟨1, ![1024]⟩

/-- The attention scale, the single-precision word of 2⁻⁵. -/
def scale : EReal := Ideal.ofBits .f32 0x3D000000#32

/-- One entry of a linear layer: row (b, h, s) of x against row e of W, plus the bias at e. -/
def projAt (x : Sx.Idx → EReal) (W : Sw.Idx → EReal) (bias : Sb.Idx → EReal)
    (b : Fin 2) (h : Fin 8) (s : Fin 2048) (e : Fin 1024) : EReal :=
  (∑ d : Fin 1024, x (ix4 b h s d) * W (ix2 e d)) + bias (ix1 e)

/-- One scaled score: query row s against key row t of the same batch and head. -/
def scoreAt (q k : Fin 2 → Fin 8 → Fin 2048 → Fin 1024 → EReal)
    (b : Fin 2) (h : Fin 8) (s t : Fin 2048) : EReal :=
  (∑ e : Fin 1024, q b h s e * k b h t e) * scale

/-- One entry of the result: the scores of row s against the value rows. -/
def attendAt (q k v : Fin 2 → Fin 8 → Fin 2048 → Fin 1024 → EReal)
    (b : Fin 2) (h : Fin 8) (s : Fin 2048) (e : Fin 1024) : EReal :=
  ∑ t : Fin 2048, scoreAt q k b h s t * v b h t e

/-- The whole result array as a function of the seven arguments. -/
def result (x : Sx.Idx → EReal) (Wq : Sw.Idx → EReal) (bq : Sb.Idx → EReal) (Wk : Sw.Idx → EReal) (bk : Sb.Idx → EReal)
    (Wv : Sw.Idx → EReal) (bv : Sb.Idx → EReal) : Sx.Idx → EReal :=
  fun i => attendAt (projAt x Wq bq) (projAt x Wk bk) (projAt x Wv bv) (i 0) (i 1) (i 2) (i 3)

end Cert.Attn

end
-- ==== Proof.Payloads.lean ====
/-
  The two kernel bodies' stored values, read at an index on the extended reals.
  The projection body stores (x·W + b) for a block of 512 rows: entry (p, e) is Σ_d x[p,d]·W[d,e] + b[0,e].
  The attention body stores, for 512 query rows of one head, entry (p, e) ↦ Σ_t ((Σ_d q[p,d]·k[t,d])·c)·v[t,e].
  A change of float format is the identity on the extended reals, and a matrix product into a zero accumulator is
  the plain sum over the contracted axis.
-/
import proofs.«143048_j40295383171639_2_alg».proof.Proof.Gen.KernelIdeal.Skeleton
import proofs.«143048_j40295383171639_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Attn

open Cert.KernelIdeal Cert.KernelIdeal.Gen Idealize.ShloMosaic Idealize.ShloMosaic.ValueIdx

/-- Rows by columns, contracting the left operand's columns with the right operand's rows: [512,1024]·[1024,1024]. -/
abbrev dotProj : DotDims S512x1024 S1024x1024 S512x1024 := dot_S512x1024_S1024x1024_S512x1024_1_0_0_1_n_n
/-- Rows against rows, contracting both operands' columns: [512,1024]·[2048,1024]ᵀ. -/
abbrev dotScore : DotDims S512x1024 S2048x1024 S512x2048 := dot_S512x1024_S2048x1024_S512x2048_1_1_0_0_n_n
/-- Rows by columns: [512,2048]·[2048,1024]. -/
abbrev dotMix : DotDims S512x2048 S2048x1024 S512x1024 := dot_S512x2048_S2048x1024_S512x1024_1_0_0_1_n_n

/-! ## The operand indices of each product at an output index -/

theorem proj_lhs0 (i : S512x1024.Idx) (q : dotProj.contr.Idx) : (dotProj.lhsIdx i q 0).val = (i 0).val := by
  unfold DotDims.lhsIdx
  rw [dif_neg (show ¬(0 : Fin S512x1024.rank) ∈ dotProj.lhsBatch by decide), dif_pos (show (0 : Fin S512x1024.rank) ∈ dotProj.lhsNonContracting by decide)]
  rfl
theorem proj_lhs1 (i : S512x1024.Idx) (q : dotProj.contr.Idx) : (dotProj.lhsIdx i q 1).val = (q ⟨0, by decide⟩).val :=
  dotProj.lhsIdx_val_of_single rfl i q
theorem proj_rhs0 (i : S512x1024.Idx) (q : dotProj.contr.Idx) : (dotProj.rhsIdx i q 0).val = (q ⟨0, by decide⟩).val :=
  dotProj.rhsIdx_val_of_single rfl i q
theorem proj_rhs1 (i : S512x1024.Idx) (q : dotProj.contr.Idx) : (dotProj.rhsIdx i q 1).val = (i 1).val := by
  unfold DotDims.rhsIdx
  rw [dif_neg (show ¬(1 : Fin S1024x1024.rank) ∈ dotProj.rhsBatch by decide), dif_pos (show (1 : Fin S1024x1024.rank) ∈ dotProj.rhsNonContracting by decide)]
  rfl

theorem score_lhs0 (i : S512x2048.Idx) (q : dotScore.contr.Idx) : (dotScore.lhsIdx i q 0).val = (i 0).val := by
  unfold DotDims.lhsIdx
  rw [dif_neg (show ¬(0 : Fin S512x1024.rank) ∈ dotScore.lhsBatch by decide), dif_pos (show (0 : Fin S512x1024.rank) ∈ dotScore.lhsNonContracting by decide)]
  rfl
theorem score_lhs1 (i : S512x2048.Idx) (q : dotScore.contr.Idx) : (dotScore.lhsIdx i q 1).val = (q ⟨0, by decide⟩).val :=
  dotScore.lhsIdx_val_of_single rfl i q
theorem score_rhs0 (i : S512x2048.Idx) (q : dotScore.contr.Idx) : (dotScore.rhsIdx i q 0).val = (i 1).val := by
  unfold DotDims.rhsIdx
  rw [dif_neg (show ¬(0 : Fin S2048x1024.rank) ∈ dotScore.rhsBatch by decide), dif_pos (show (0 : Fin S2048x1024.rank) ∈ dotScore.rhsNonContracting by decide)]
  rfl
theorem score_rhs1 (i : S512x2048.Idx) (q : dotScore.contr.Idx) : (dotScore.rhsIdx i q 1).val = (q ⟨0, by decide⟩).val :=
  dotScore.rhsIdx_val_of_single rfl i q

theorem mix_lhs0 (i : S512x1024.Idx) (q : dotMix.contr.Idx) : (dotMix.lhsIdx i q 0).val = (i 0).val := by
  unfold DotDims.lhsIdx
  rw [dif_neg (show ¬(0 : Fin S512x2048.rank) ∈ dotMix.lhsBatch by decide), dif_pos (show (0 : Fin S512x2048.rank) ∈ dotMix.lhsNonContracting by decide)]
  rfl
theorem mix_lhs1 (i : S512x1024.Idx) (q : dotMix.contr.Idx) : (dotMix.lhsIdx i q 1).val = (q ⟨0, by decide⟩).val :=
  dotMix.lhsIdx_val_of_single rfl i q
theorem mix_rhs0 (i : S512x1024.Idx) (q : dotMix.contr.Idx) : (dotMix.rhsIdx i q 0).val = (q ⟨0, by decide⟩).val :=
  dotMix.rhsIdx_val_of_single rfl i q
theorem mix_rhs1 (i : S512x1024.Idx) (q : dotMix.contr.Idx) : (dotMix.rhsIdx i q 1).val = (i 1).val := by
  unfold DotDims.rhsIdx
  rw [dif_neg (show ¬(1 : Fin S2048x1024.rank) ∈ dotMix.rhsBatch by decide), dif_pos (show (1 : Fin S2048x1024.rank) ∈ dotMix.rhsNonContracting by decide)]
  rfl

/-! ## Each product into a zero accumulator, as a sum over the contracted axis -/

/-- (l·r)[p,e] = Σ_d l[p,d]·r[d,e]. -/
theorem matmulProj_apply {φ₁ φ₂ : FTy} (l : FVec Ideal S512x1024 φ₁) (r : FVec Ideal S1024x1024 φ₂) (p : Fin 512) (e : Fin 1024) :
    matmul dotProj none l r (constant S512x1024 .f32 0x00000000#32) (ix2 p e) = ∑ d : Fin 1024, l (ix2 p d) * r (ix2 d e) := by
  simp only [matmul]
  rw [Ideal.matmul_constant_zero_apply, ← Equiv.sum_comp (contrEquiv1 dotProj 1024 rfl rfl).symm]
  refine Finset.sum_congr rfl fun k _ => ?_
  have hk := contrEquiv1_symm_val dotProj 1024 rfl rfl k
  have el : dotProj.lhsIdx (ix2 p e) ((contrEquiv1 dotProj 1024 rfl rfl).symm k) = ix2 p k := funext fun a => Fin.ext (by
    match a with
    | ⟨0, _⟩ => exact proj_lhs0 _ _
    | ⟨1, _⟩ => exact (proj_lhs1 _ _).trans hk)
  have er : dotProj.rhsIdx (ix2 p e) ((contrEquiv1 dotProj 1024 rfl rfl).symm k) = ix2 k e := funext fun a => Fin.ext (by
    match a with
    | ⟨0, _⟩ => exact (proj_rhs0 _ _).trans hk
    | ⟨1, _⟩ => exact proj_rhs1 _ _)
  rw [el, er]

/-- (l·rᵀ)[p,t] = Σ_d l[p,d]·r[t,d]. -/
theorem matmulScore_apply {φ₁ φ₂ : FTy} (l : FVec Ideal S512x1024 φ₁) (r : FVec Ideal S2048x1024 φ₂) (p : Fin 512) (t : Fin 2048) :
    matmul dotScore none l r (constant S512x2048 .f32 0x00000000#32) (ix2 p t) = ∑ d : Fin 1024, l (ix2 p d) * r (ix2 t d) := by
  simp only [matmul]
  rw [Ideal.matmul_constant_zero_apply, ← Equiv.sum_comp (contrEquiv1 dotScore 1024 rfl rfl).symm]
  refine Finset.sum_congr rfl fun k _ => ?_
  have hk := contrEquiv1_symm_val dotScore 1024 rfl rfl k
  have el : dotScore.lhsIdx (ix2 p t) ((contrEquiv1 dotScore 1024 rfl rfl).symm k) = ix2 p k := funext fun a => Fin.ext (by
    match a with
    | ⟨0, _⟩ => exact score_lhs0 _ _
    | ⟨1, _⟩ => exact (score_lhs1 _ _).trans hk)
  have er : dotScore.rhsIdx (ix2 p t) ((contrEquiv1 dotScore 1024 rfl rfl).symm k) = ix2 t k := funext fun a => Fin.ext (by
    match a with
    | ⟨0, _⟩ => exact score_rhs0 _ _
    | ⟨1, _⟩ => exact (score_rhs1 _ _).trans hk)
  rw [el, er]

/-- (l·r)[p,e] = Σ_t l[p,t]·r[t,e]. -/
theorem matmulMix_apply {φ₁ φ₂ : FTy} (l : FVec Ideal S512x2048 φ₁) (r : FVec Ideal S2048x1024 φ₂) (p : Fin 512) (e : Fin 1024) :
    matmul dotMix none l r (constant S512x1024 .f32 0x00000000#32) (ix2 p e) = ∑ t : Fin 2048, l (ix2 p t) * r (ix2 t e) := by
  simp only [matmul]
  rw [Ideal.matmul_constant_zero_apply, ← Equiv.sum_comp (contrEquiv1 dotMix 2048 rfl rfl).symm]
  refine Finset.sum_congr rfl fun k _ => ?_
  have hk := contrEquiv1_symm_val dotMix 2048 rfl rfl k
  have el : dotMix.lhsIdx (ix2 p e) ((contrEquiv1 dotMix 2048 rfl rfl).symm k) = ix2 p k := funext fun a => Fin.ext (by
    match a with
    | ⟨0, _⟩ => exact mix_lhs0 _ _
    | ⟨1, _⟩ => exact (mix_lhs1 _ _).trans hk)
  have er : dotMix.rhsIdx (ix2 p e) ((contrEquiv1 dotMix 2048 rfl rfl).symm k) = ix2 k e := funext fun a => Fin.ext (by
    match a with
    | ⟨0, _⟩ => exact (mix_rhs0 _ _).trans hk
    | ⟨1, _⟩ => exact mix_rhs1 _ _)
  rw [el, er]

/-! ## The bodies' stored values at an index -/

/-- The projection body's stored block at (p, e): the row of x against column e of the weight block, plus the bias row at e. -/
theorem pay_proj_apply (x : FVec Ideal S512x1024 .f32) (W : FVec Ideal S1024x1024 .bf16) (b : FVec Ideal S1x1024 .f32)
    (p : Fin 512) (e : Fin 1024) :
    k0_pay2 (F := Ideal) x W b (ix2 p e) = (∑ d : Fin 1024, x (ix2 p d) * W (ix2 d e)) + b (ix2 (0 : Fin 1) e) := by
  unfold k0_pay2 k0_pay1
  dsimp only
  rw [truncf_apply, addf_apply, shapeCast_self, shapeCast_self, shapeCast_self, matmulProj_apply, broadcastTo_1b_ab_apply]
  rfl

/-- The three projections store the same function of their own operands. -/
theorem pay3_eq : (k0_pay3 (F := Ideal)) = k0_pay2 (F := Ideal) := rfl
theorem pay4_eq : (k0_pay4 (F := Ideal)) = k0_pay2 (F := Ideal) := rfl

/-- The attention body's stored block at (0, p, e): the scaled scores of query row p against all 2048 key rows,
    applied to column e of the value rows. -/
theorem pay_attn_apply (x0 : FVec Ideal S1x512x1024 .bf16) (x1 x2 : FVec Ideal S1x2048x1024 .bf16)
    (z : Fin 1) (p : Fin 512) (e : Fin 1024) :
    k1_pay1 (F := Ideal) x0 x1 x2 (ix3 z p e)
      = ∑ t : Fin 2048, ((∑ d : Fin 1024, x0 (ix3 (0 : Fin 1) p d) * x1 (ix3 (0 : Fin 1) t d)) * Cert.Attn.scale) * x2 (ix3 (0 : Fin 1) t e) := by
  unfold k1_pay1
  rw [shapeCast_ab_1ab_apply, matmulMix_apply]
  refine Finset.sum_congr rfl fun t _ => ?_
  rw [truncf_apply, mulf_apply, broadcast_apply, matmulScore_apply, shapeCast_1ab_ab_apply]
  refine congrArg₂ (· * ·) (congrArg₂ (· * ·) (Finset.sum_congr rfl fun d _ => ?_) rfl) rfl
  rw [shapeCast_1ab_ab_apply, shapeCast_1ab_ab_apply]

end Cert.KernelIdeal.Attn

end
-- ==== Proof.AttnRegion.lean ====
/-
  The attention launch as one function of the arrays it is entered with. Its grid is 16 heads by 4 tiles of 512
  query rows. At point (bh, qi) the body reads query rows 512·qi … 512·qi + 511 of head bh and all 2048 key and
  value rows of that head, and writes rows 512·qi … of head bh of the output. The 64 output blocks tile the
  [16, 2048, 1024] array, so after the launch entry (bh, s, e) of the output is
  Σ_t ((Σ_d Q[bh,s,d]·K[bh,t,d])·c)·V[bh,t,e].
-/
import proofs.«143048_j40295383171639_2_alg».proof.Proof.Gen.KernelIdeal.Frame
import proofs.«143048_j40295383171639_2_alg».proof.Proof.Payloads

set_option maxRecDepth 16384

noncomputable section

open scoped BigOperators

namespace Cert.KernelIdeal.Attn

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- One entry of the per-head attention: query row s of head bh against every key row, scaled, applied to column e
    of the value rows. -/
def headAttnAt (Q K Vv : S16x2048x1024.Idx → EReal) (bh : Fin 16) (s : Fin 2048) (e : Fin 1024) : EReal :=
  ∑ t : Fin 2048, ((∑ d : Fin 1024, Q (ix3 bh s d) * K (ix3 bh t d)) * Cert.Attn.scale) * Vv (ix3 bh t e)

/-- The launch's output array as a function of the three arrays it reads. -/
def headAttn (Q K Vv : S16x2048x1024.Idx → EReal) : S16x2048x1024.Idx → EReal :=
  fun i => headAttnAt Q K Vv (i 0) (i 1) (i 2)

/-- At one grid point: if the query block's row p is row s of head bh, and the key and value blocks are head bh's
    rows, the stored block at (0, p, e) is the attention entry (bh, s, e). -/
theorem attn_point (Q K Vv : S16x2048x1024.Idx → EReal)
    (x0 : FVec Ideal S1x512x1024 .bf16) (x1 x2 : FVec Ideal S1x2048x1024 .bf16)
    (bh : Fin 16) (s : Fin 2048) (z : Fin 1) (p : Fin 512) (e : Fin 1024)
    (h0 : ∀ d : Fin 1024, x0 (ix3 (0 : Fin 1) p d) = Q (ix3 bh s d))
    (h1 : ∀ (t : Fin 2048) (d : Fin 1024), x1 (ix3 (0 : Fin 1) t d) = K (ix3 bh t d))
    (h2 : ∀ (t : Fin 2048), x2 (ix3 (0 : Fin 1) t e) = Vv (ix3 bh t e)) :
    k1_pay1 (F := Ideal) x0 x1 x2 (ix3 z p e) = headAttnAt Q K Vv bh s e := by
  rw [pay_attn_apply]
  unfold headAttnAt
  simp only [h0, h1, h2]

variable (V : (c : Dev nD) → (b : Ref sig .tc) → Buf (Elt Ideal) ((c : Thread nD τ).loc b))

theorem hz3 : (![0, 0, 0] : Fin 3 → Nat) = fun _ => 0 := funext fun a => by fin_cases a <;> rfl

/-- The index maps over the grid: the query window moves with the output window; the key and value windows follow
    the head and stay at row block 0; the output's block indices stay inside 16 × 4 × 1. -/
theorem idx_facts1 : ∀ t : Fin cfg1.N,
      win1_0.index t (0 : Fin 3) = win1_3.index t (0 : Fin 3) ∧ win1_0.index t (1 : Fin 3) = win1_3.index t (1 : Fin 3)
    ∧ win1_0.index t (2 : Fin 3) = 0
    ∧ win1_1.index t (0 : Fin 3) = win1_3.index t (0 : Fin 3) ∧ win1_1.index t (1 : Fin 3) = 0 ∧ win1_1.index t (2 : Fin 3) = 0
    ∧ win1_2.index t (0 : Fin 3) = win1_3.index t (0 : Fin 3) ∧ win1_2.index t (1 : Fin 3) = 0 ∧ win1_2.index t (2 : Fin 3) = 0
    ∧ win1_3.index t (0 : Fin 3) ≤ 15 ∧ win1_3.index t (1 : Fin 3) ≤ 3 ∧ win1_3.index t (2 : Fin 3) = 0 :=
  (by decide +kernel : ∀ t : Fin grid1.N, _)

/-- Every (head, row tile) is some grid point's output block. -/
theorem idx_onto1 : ∀ (q0 : Fin 16) (q1 : Fin 4), ∃ t : Fin cfg1.N, win1_3.index t = ![q0.val, q1.val, 0] :=
  (by decide +kernel : ∀ (q0 : Fin 16) (q1 : Fin 4), ∃ t : Fin grid1.N, win1_3.index t = ![q0.val, q1.val, 0])

/-- What point t writes back is block t of the per-head attention of the arrays the launch is entered with. -/
theorem attn_flushed (c : Dev nD) (t : Fin cfg1.N) :
    (dat1 V c).flushed 3 t
      = ((cfg1.win 3).blk t).view.read (Elt Ideal) (headAttn (V c main_v11) (V c main_v12) (V c main_v13)) := by
  show (cfg1.win 3).cut (grid1.coords t) ((dat1 V c).after 3 t) = _
  rw [after1_3]
  unfold out1_3
  rw [View.canon_unit_zero hz3]
  simp only [View.ld_unit_zero (S := S1x512x1024) hz3, View.ld_unit_zero (S := S1x2048x1024) hz3]
  obtain ⟨a0, a1, a2, b0, b1, b2, c0, c1, c2, o0, o1, o2⟩ := idx_facts1 t
  funext j
  have hj0 : (j 0).val < 1 := (j 0).isLt
  have hj1 : (j 1).val < 512 := (j 1).isLt
  have hj2 : (j 2).val < 1024 := (j 2).isLt
  have hs : win1_3.index t (1 : Fin 3) * 512 + (j 1).val < 2048 := by omega
  have hb : win1_3.index t (0 : Fin 3) < 16 := by omega
  show k1_pay1 (F := Ideal) (iblk1 V c 0 t) (iblk1 V c 1 t) (iblk1 V c 2 t) (ix3 ⟨(j 0).val, hj0⟩ ⟨(j 1).val, hj1⟩ ⟨(j 2).val, hj2⟩)
    = headAttnAt (V c main_v11) (V c main_v12) (V c main_v13) ⟨win1_3.index t (0 : Fin 3) * 1 + 1 * (j 0).val, by omega⟩
        ⟨win1_3.index t (1 : Fin 3) * 512 + 1 * (j 1).val, by omega⟩ ⟨win1_3.index t (2 : Fin 3) * 1024 + 1 * (j 2).val, by omega⟩
  refine (attn_point (V c main_v11) (V c main_v12) (V c main_v13) (iblk1 V c 0 t) (iblk1 V c 1 t) (iblk1 V c 2 t)
    ⟨win1_3.index t (0 : Fin 3), hb⟩ ⟨win1_3.index t (1 : Fin 3) * 512 + (j 1).val, hs⟩ ⟨(j 0).val, hj0⟩ ⟨(j 1).val, hj1⟩ ⟨(j 2).val, hj2⟩ ?_ ?_ ?_).trans ?_
  · intro d
    show V c main_v11 (((cfg1.win 0).blk t).view.emb (ix3 (0 : Fin 1) ⟨(j 1).val, hj1⟩ d)) = V c main_v11 _
    refine congrArg (V c main_v11) (funext fun a => Fin.ext ?_)
    match a with
    | ⟨0, _⟩ => show win1_0.index t (0 : Fin 3) * 1 + 1 * 0 = win1_3.index t (0 : Fin 3); omega
    | ⟨1, _⟩ => show win1_0.index t (1 : Fin 3) * 512 + 1 * (j 1).val = win1_3.index t (1 : Fin 3) * 512 + (j 1).val; omega
    | ⟨2, _⟩ => show win1_0.index t (2 : Fin 3) * 1024 + 1 * d.val = d.val; omega
  · intro t' d
    show V c main_v12 (((cfg1.win 1).blk t).view.emb (ix3 (0 : Fin 1) t' d)) = V c main_v12 _
    refine congrArg (V c main_v12) (funext fun a => Fin.ext ?_)
    match a with
    | ⟨0, _⟩ => show win1_1.index t (0 : Fin 3) * 1 + 1 * 0 = win1_3.index t (0 : Fin 3); omega
    | ⟨1, _⟩ => show win1_1.index t (1 : Fin 3) * 2048 + 1 * t'.val = t'.val; omega
    | ⟨2, _⟩ => show win1_1.index t (2 : Fin 3) * 1024 + 1 * d.val = d.val; omega
  · intro t'
    show V c main_v13 (((cfg1.win 2).blk t).view.emb (ix3 (0 : Fin 1) t' ⟨(j 2).val, hj2⟩)) = V c main_v13 _
    refine congrArg (V c main_v13) (funext fun a => Fin.ext ?_)
    match a with
    | ⟨0, _⟩ => show win1_2.index t (0 : Fin 3) * 1 + 1 * 0 = win1_3.index t (0 : Fin 3); omega
    | ⟨1, _⟩ => show win1_2.index t (1 : Fin 3) * 2048 + 1 * t'.val = t'.val; omega
    | ⟨2, _⟩ => show win1_2.index t (2 : Fin 3) * 1024 + 1 * (j 2).val = (j 2).val; omega
  · have e0 : (⟨win1_3.index t (0 : Fin 3), hb⟩ : Fin 16) = ⟨win1_3.index t (0 : Fin 3) * 1 + 1 * (j 0).val, by omega⟩ := Fin.ext (by show win1_3.index t (0 : Fin 3) = win1_3.index t (0 : Fin 3) * 1 + 1 * (j 0).val; omega)
    have e1 : (⟨win1_3.index t (1 : Fin 3) * 512 + (j 1).val, hs⟩ : Fin 2048) = ⟨win1_3.index t (1 : Fin 3) * 512 + 1 * (j 1).val, by omega⟩ := Fin.ext (by show win1_3.index t (1 : Fin 3) * 512 + (j 1).val = win1_3.index t (1 : Fin 3) * 512 + 1 * (j 1).val; omega)
    have e2 : (⟨(j 2).val, hj2⟩ : Fin 1024) = ⟨win1_3.index t (2 : Fin 3) * 1024 + 1 * (j 2).val, by omega⟩ := Fin.ext (by show (j 2).val = win1_3.index t (2 : Fin 3) * 1024 + 1 * (j 2).val; omega)
    rw [e0, e1, e2]

/-- An index of the output array is in point t's block iff each coordinate is in the block's range on its axis. -/
theorem mem_blk1 (t : Fin cfg1.N) (i : S16x2048x1024.Idx) :
    i ∈ ((cfg1.win 3).blk t).view.set ↔ ∀ a : Fin 3, win1_3.index t a * S1x512x1024.size a ≤ (i a).val
      ∧ (i a).val < win1_3.index t a * S1x512x1024.size a + S1x512x1024.size a := by
  show i ∈ ((View.whole main_v14).slice (win1_3.rect t)).set ↔ _
  rw [View.set_slice_whole, Rect.mem_set_unit]
  exact Iff.rfl

/-- The 64 output blocks cover the array: row s of head bh is in the block of point (bh, s / 512). -/
theorem cover1 (i : S16x2048x1024.Idx) :
    ∃ t : Fin cfg1.N, (cfg1.win 3).flush t = true ∧ i ∈ ((cfg1.win 3).blk t).view.set := by
  have hi0 : (i 0).val < 16 := (i 0).isLt
  have hi1 : (i 1).val < 2048 := (i 1).isLt
  have hi2 : (i 2).val < 1024 := (i 2).isLt
  obtain ⟨t, ht⟩ := idx_onto1 ⟨(i 0).val, hi0⟩ ⟨(i 1).val / 512, by omega⟩
  have q0 : win1_3.index t (0 : Fin 3) = (i 0).val := congrFun ht 0
  have q1 : win1_3.index t (1 : Fin 3) = (i 1).val / 512 := congrFun ht 1
  have q2 : win1_3.index t (2 : Fin 3) = 0 := congrFun ht 2
  refine ⟨t, flush1_3 t, ?_⟩
  rw [mem_blk1]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 1024 ≤ (i 2).val ∧ (i 2).val < win1_3.index t (2 : Fin 3) * 1024 + 1024; omega

/-- The launch's output array after its last point: the per-head attention of the arrays it was entered with. -/
theorem attn_final (c : Dev nD) :
    (dat1 V c).arrAt 3 cfg1.N = headAttn (V c main_v11) (V c main_v12) (V c main_v13) :=
  (dat1 V c).arrAt_eq_of_cover 3 _ (fun t _ => attn_flushed V c t) cover1

end Cert.KernelIdeal.Attn

end
-- ==== Proof.ProjRegion.lean ====
/-
  The projection launch as one function of the arrays it is entered with. Its grid is 64 tiles of 512 rows of the
  [32768, 1024] activations. At point i the body reads rows 512·i … 512·i + 511 of the activations and the whole of
  three transposed weight matrices and three bias rows, and writes the same rows of the three outputs. Each output's
  64 blocks tile its array, so after the launch entry (r, e) of an output is Σ_d X[r,d]·Wᵗ[d,e] + b[0,e].
-/
import proofs.«143048_j40295383171639_2_alg».proof.Proof.Gen.KernelIdeal.Frame
import proofs.«143048_j40295383171639_2_alg».proof.Proof.Payloads

set_option maxRecDepth 16384

noncomputable section

open scoped BigOperators

namespace Cert.KernelIdeal.Attn

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- One entry of a row projection: row r of X against column e of the transposed weights, plus the bias row at e. -/
def rowProjAt (X : S32768x1024.Idx → EReal) (Wt : S1024x1024.Idx → EReal) (b2 : S1x1024.Idx → EReal)
    (r : Fin 32768) (e : Fin 1024) : EReal :=
  (∑ d : Fin 1024, X (ix2 r d) * Wt (ix2 d e)) + b2 (ix2 (0 : Fin 1) e)

/-- An output array of the launch as a function of the three arrays it is computed from. -/
def rowProj (X : S32768x1024.Idx → EReal) (Wt : S1024x1024.Idx → EReal) (b2 : S1x1024.Idx → EReal) : S32768x1024.Idx → EReal :=
  fun i => rowProjAt X Wt b2 (i 0) (i 1)

/-- At one grid point: if the activation block's row p is row r of X and the weight and bias blocks are the whole
    arrays, the stored block at (p, e) is the projection entry (r, e). -/
theorem proj_point (X : S32768x1024.Idx → EReal) (Wt : S1024x1024.Idx → EReal) (b2 : S1x1024.Idx → EReal)
    (x : FVec Ideal S512x1024 .f32) (W : FVec Ideal S1024x1024 .bf16) (b : FVec Ideal S1x1024 .f32)
    (r : Fin 32768) (p : Fin 512) (e : Fin 1024)
    (h0 : ∀ d : Fin 1024, x (ix2 p d) = X (ix2 r d))
    (h1 : ∀ d : Fin 1024, W (ix2 d e) = Wt (ix2 d e))
    (h2 : b (ix2 (0 : Fin 1) e) = b2 (ix2 (0 : Fin 1) e)) :
    k0_pay2 (F := Ideal) x W b (ix2 p e) = rowProjAt X Wt b2 r e := by
  rw [pay_proj_apply]
  unfold rowProjAt
  simp only [h0, h1, h2]

variable (V : (c : Dev nD) → (b : Ref sig .tc) → Buf (Elt Ideal) ((c : Thread nD τ).loc b))

theorem hz2 : (![0, 0] : Fin 2 → Nat) = fun _ => 0 := funext fun a => by fin_cases a <;> rfl

/-! ## The index maps over the grid: the activation window moves with each output window, the weight and bias
    windows stay at block (0, 0), and every row tile is some point's output block -/

theorem idx_facts0_7 : ∀ t : Fin cfg0.N,
      win0_0.index t (0 : Fin 2) = win0_7.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_7.index t (0 : Fin 2) ≤ 63 ∧ win0_7.index t (1 : Fin 2) = 0 :=
  (by decide +kernel : ∀ t : Fin grid0.N, _)
theorem idx_onto0_7 : ∀ (q0 : Fin 64), ∃ t : Fin cfg0.N, win0_7.index t = ![q0.val, 0] :=
  (by decide +kernel : ∀ (q0 : Fin 64), ∃ t : Fin grid0.N, win0_7.index t = ![q0.val, 0])

theorem idx_facts0_8 : ∀ t : Fin cfg0.N,
      win0_0.index t (0 : Fin 2) = win0_8.index t (0 : Fin 2) ∧ win0_0.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_8.index t (0 : Fin 2) ≤ 63 ∧ win0_8.index t (1 : Fin 2) = 0 :=
  (by decide +kernel : ∀ t : Fin grid0.N, _)
theorem idx_onto0_8 : ∀ (q0 : Fin 64), ∃ t : Fin cfg0.N, win0_8.index t = ![q0.val, 0] :=
  (by decide +kernel : ∀ (q0 : Fin 64), ∃ t : Fin grid0.N, win0_8.index t = ![q0.val, 0])

theorem idx_facts0_9 : ∀ t : Fin cfg0.N,
      win0_0.index t (0 : Fin 2) = win0_9.index t (0 : Fin 2) ∧ win0_0.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_9.index t (0 : Fin 2) ≤ 63 ∧ win0_9.index t (1 : Fin 2) = 0 :=
  (by decide +kernel : ∀ t : Fin grid0.N, _)
theorem idx_onto0_9 : ∀ (q0 : Fin 64), ∃ t : Fin cfg0.N, win0_9.index t = ![q0.val, 0] :=
  (by decide +kernel : ∀ (q0 : Fin 64), ∃ t : Fin grid0.N, win0_9.index t = ![q0.val, 0])

/-! ## The query output -/

/-- What point t writes back to the q output is block t of the row projection of the arrays the launch is entered with. -/
theorem q_flushed (c : Dev nD) (t : Fin cfg0.N) :
    (dat0 V c).flushed 7 t
      = ((cfg0.win 7).blk t).view.read (Elt Ideal) (rowProj (V c main_v0) (V c main_v2) (V c main_v7)) := by
  show (cfg0.win 7).cut (grid0.coords t) ((dat0 V c).after 7 t) = _
  rw [after0_7]
  unfold out0_7
  rw [View.canon_unit_zero hz2]
  simp only [View.ld_unit_zero (S := S512x1024) hz2, View.ld_unit_zero (S := S1024x1024) hz2, View.ld_unit_zero (S := S1x1024) hz2]
  obtain ⟨x0, x1, w0, w1, b0, b1, o0, o1⟩ := idx_facts0_7 t
  funext j
  have hj0 : (j 0).val < 512 := (j 0).isLt
  have hj1 : (j 1).val < 1024 := (j 1).isLt
  have hr : win0_7.index t (0 : Fin 2) * 512 + (j 0).val < 32768 := by omega
  show k0_pay2 (F := Ideal) (iblk0 V c 0 t) (iblk0 V c 1 t) (iblk0 V c 2 t) (ix2 ⟨(j 0).val, hj0⟩ ⟨(j 1).val, hj1⟩)
    = rowProjAt (V c main_v0) (V c main_v2) (V c main_v7) ⟨win0_7.index t (0 : Fin 2) * 512 + 1 * (j 0).val, by omega⟩
        ⟨win0_7.index t (1 : Fin 2) * 1024 + 1 * (j 1).val, by omega⟩
  refine (proj_point (V c main_v0) (V c main_v2) (V c main_v7) (iblk0 V c 0 t) (iblk0 V c 1 t) (iblk0 V c 2 t)
    ⟨win0_7.index t (0 : Fin 2) * 512 + (j 0).val, hr⟩ ⟨(j 0).val, hj0⟩ ⟨(j 1).val, hj1⟩ ?_ ?_ ?_).trans ?_
  · intro d
    show V c main_v0 (((cfg0.win 0).blk t).view.emb (ix2 ⟨(j 0).val, hj0⟩ d)) = V c main_v0 _
    refine congrArg (V c main_v0) (funext fun a => Fin.ext ?_)
    match a with
    | ⟨0, _⟩ => show win0_0.index t (0 : Fin 2) * 512 + 1 * (j 0).val = win0_7.index t (0 : Fin 2) * 512 + (j 0).val; omega
    | ⟨1, _⟩ => show win0_0.index t (1 : Fin 2) * 1024 + 1 * d.val = d.val; omega
  · intro d
    show V c main_v2 (((cfg0.win 1).blk t).view.emb (ix2 d ⟨(j 1).val, hj1⟩)) = V c main_v2 _
    refine congrArg (V c main_v2) (funext fun a => Fin.ext ?_)
    match a with
    | ⟨0, _⟩ => show win0_1.index t (0 : Fin 2) * 1024 + 1 * d.val = d.val; omega
    | ⟨1, _⟩ => show win0_1.index t (1 : Fin 2) * 1024 + 1 * (j 1).val = (j 1).val; omega
  · show V c main_v7 (((cfg0.win 2).blk t).view.emb (ix2 (0 : Fin 1) ⟨(j 1).val, hj1⟩)) = V c main_v7 _
    refine congrArg (V c main_v7) (funext fun a => Fin.ext ?_)
    match a with
    | ⟨0, _⟩ => show win0_2.index t (0 : Fin 2) * 1 + 1 * 0 = 0; omega
    | ⟨1, _⟩ => show win0_2.index t (1 : Fin 2) * 1024 + 1 * (j 1).val = (j 1).val; omega
  · have e0 : (⟨win0_7.index t (0 : Fin 2) * 512 + (j 0).val, hr⟩ : Fin 32768) = ⟨win0_7.index t (0 : Fin 2) * 512 + 1 * (j 0).val, by omega⟩ :=
      Fin.ext (by show win0_7.index t (0 : Fin 2) * 512 + (j 0).val = win0_7.index t (0 : Fin 2) * 512 + 1 * (j 0).val; omega)
    have e1 : (⟨(j 1).val, hj1⟩ : Fin 1024) = ⟨win0_7.index t (1 : Fin 2) * 1024 + 1 * (j 1).val, by omega⟩ :=
      Fin.ext (by show (j 1).val = win0_7.index t (1 : Fin 2) * 1024 + 1 * (j 1).val; omega)
    rw [e0, e1]

/-- An index of the q output is in point t's block iff each coordinate is in the block's range on its axis. -/
theorem q_mem_blk (t : Fin cfg0.N) (i : S32768x1024.Idx) :
    i ∈ ((cfg0.win 7).blk t).view.set ↔ ∀ a : Fin 2, win0_7.index t a * S512x1024.size a ≤ (i a).val
      ∧ (i a).val < win0_7.index t a * S512x1024.size a + S512x1024.size a := by
  show i ∈ ((View.whole main_v10_0).slice (win0_7.rect t)).set ↔ _
  rw [View.set_slice_whole, Rect.mem_set_unit]
  exact Iff.rfl

/-- The 64 blocks of 512 rows cover the q output: row r is in the block of point r / 512. -/
theorem q_cover (i : S32768x1024.Idx) :
    ∃ t : Fin cfg0.N, (cfg0.win 7).flush t = true ∧ i ∈ ((cfg0.win 7).blk t).view.set := by
  have hi0 : (i 0).val < 32768 := (i 0).isLt
  have hi1 : (i 1).val < 1024 := (i 1).isLt
  obtain ⟨t, ht⟩ := idx_onto0_7 ⟨(i 0).val / 512, by omega⟩
  have q0 : win0_7.index t (0 : Fin 2) = (i 0).val / 512 := congrFun ht 0
  have q1 : win0_7.index t (1 : Fin 2) = 0 := congrFun ht 1
  refine ⟨t, flush0_7 t, ?_⟩
  rw [q_mem_blk]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 1024 ≤ (i 1).val ∧ (i 1).val < win0_7.index t (1 : Fin 2) * 1024 + 1024; omega

/-- The q output after the launch's last point: the row projection of the arrays it was entered with. -/
theorem q_final (c : Dev nD) :
    (dat0 V c).arrAt 7 cfg0.N = rowProj (V c main_v0) (V c main_v2) (V c main_v7) :=
  (dat0 V c).arrAt_eq_of_cover 7 _ (fun t _ => q_flushed V c t) q_cover

/-! ## The key output -/

/-- What point t writes back to the k output is block t of the row projection of the arrays the launch is entered with. -/
theorem k_flushed (c : Dev nD) (t : Fin cfg0.N) :
    (dat0 V c).flushed 8 t
      = ((cfg0.win 8).blk t).view.read (Elt Ideal) (rowProj (V c main_v0) (V c main_v4) (V c main_v8)) := by
  show (cfg0.win 8).cut (grid0.coords t) ((dat0 V c).after 8 t) = _
  rw [after0_8]
  unfold out0_8
  rw [View.canon_unit_zero hz2]
  simp only [View.ld_unit_zero (S := S512x1024) hz2, View.ld_unit_zero (S := S1024x1024) hz2, View.ld_unit_zero (S := S1x1024) hz2]
  rw [pay3_eq]
  obtain ⟨x0, x1, w0, w1, b0, b1, o0, o1⟩ := idx_facts0_8 t
  funext j
  have hj0 : (j 0).val < 512 := (j 0).isLt
  have hj1 : (j 1).val < 1024 := (j 1).isLt
  have hr : win0_8.index t (0 : Fin 2) * 512 + (j 0).val < 32768 := by omega
  show k0_pay2 (F := Ideal) (iblk0 V c 0 t) (iblk0 V c 3 t) (iblk0 V c 4 t) (ix2 ⟨(j 0).val, hj0⟩ ⟨(j 1).val, hj1⟩)
    = rowProjAt (V c main_v0) (V c main_v4) (V c main_v8) ⟨win0_8.index t (0 : Fin 2) * 512 + 1 * (j 0).val, by omega⟩
        ⟨win0_8.index t (1 : Fin 2) * 1024 + 1 * (j 1).val, by omega⟩
  refine (proj_point (V c main_v0) (V c main_v4) (V c main_v8) (iblk0 V c 0 t) (iblk0 V c 3 t) (iblk0 V c 4 t)
    ⟨win0_8.index t (0 : Fin 2) * 512 + (j 0).val, hr⟩ ⟨(j 0).val, hj0⟩ ⟨(j 1).val, hj1⟩ ?_ ?_ ?_).trans ?_
  · intro d
    show V c main_v0 (((cfg0.win 0).blk t).view.emb (ix2 ⟨(j 0).val, hj0⟩ d)) = V c main_v0 _
    refine congrArg (V c main_v0) (funext fun a => Fin.ext ?_)
    match a with
    | ⟨0, _⟩ => show win0_0.index t (0 : Fin 2) * 512 + 1 * (j 0).val = win0_8.index t (0 : Fin 2) * 512 + (j 0).val; omega
    | ⟨1, _⟩ => show win0_0.index t (1 : Fin 2) * 1024 + 1 * d.val = d.val; omega
  · intro d
    show V c main_v4 (((cfg0.win 3).blk t).view.emb (ix2 d ⟨(j 1).val, hj1⟩)) = V c main_v4 _
    refine congrArg (V c main_v4) (funext fun a => Fin.ext ?_)
    match a with
    | ⟨0, _⟩ => show win0_3.index t (0 : Fin 2) * 1024 + 1 * d.val = d.val; omega
    | ⟨1, _⟩ => show win0_3.index t (1 : Fin 2) * 1024 + 1 * (j 1).val = (j 1).val; omega
  · show V c main_v8 (((cfg0.win 4).blk t).view.emb (ix2 (0 : Fin 1) ⟨(j 1).val, hj1⟩)) = V c main_v8 _
    refine congrArg (V c main_v8) (funext fun a => Fin.ext ?_)
    match a with
    | ⟨0, _⟩ => show win0_4.index t (0 : Fin 2) * 1 + 1 * 0 = 0; omega
    | ⟨1, _⟩ => show win0_4.index t (1 : Fin 2) * 1024 + 1 * (j 1).val = (j 1).val; omega
  · have e0 : (⟨win0_8.index t (0 : Fin 2) * 512 + (j 0).val, hr⟩ : Fin 32768) = ⟨win0_8.index t (0 : Fin 2) * 512 + 1 * (j 0).val, by omega⟩ :=
      Fin.ext (by show win0_8.index t (0 : Fin 2) * 512 + (j 0).val = win0_8.index t (0 : Fin 2) * 512 + 1 * (j 0).val; omega)
    have e1 : (⟨(j 1).val, hj1⟩ : Fin 1024) = ⟨win0_8.index t (1 : Fin 2) * 1024 + 1 * (j 1).val, by omega⟩ :=
      Fin.ext (by show (j 1).val = win0_8.index t (1 : Fin 2) * 1024 + 1 * (j 1).val; omega)
    rw [e0, e1]

/-- An index of the k output is in point t's block iff each coordinate is in the block's range on its axis. -/
theorem k_mem_blk (t : Fin cfg0.N) (i : S32768x1024.Idx) :
    i ∈ ((cfg0.win 8).blk t).view.set ↔ ∀ a : Fin 2, win0_8.index t a * S512x1024.size a ≤ (i a).val
      ∧ (i a).val < win0_8.index t a * S512x1024.size a + S512x1024.size a := by
  show i ∈ ((View.whole main_v10_1).slice (win0_8.rect t)).set ↔ _
  rw [View.set_slice_whole, Rect.mem_set_unit]
  exact Iff.rfl

/-- The 64 blocks of 512 rows cover the k output: row r is in the block of point r / 512. -/
theorem k_cover (i : S32768x1024.Idx) :
    ∃ t : Fin cfg0.N, (cfg0.win 8).flush t = true ∧ i ∈ ((cfg0.win 8).blk t).view.set := by
  have hi0 : (i 0).val < 32768 := (i 0).isLt
  have hi1 : (i 1).val < 1024 := (i 1).isLt
  obtain ⟨t, ht⟩ := idx_onto0_8 ⟨(i 0).val / 512, by omega⟩
  have q0 : win0_8.index t (0 : Fin 2) = (i 0).val / 512 := congrFun ht 0
  have q1 : win0_8.index t (1 : Fin 2) = 0 := congrFun ht 1
  refine ⟨t, flush0_8 t, ?_⟩
  rw [k_mem_blk]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 1024 ≤ (i 1).val ∧ (i 1).val < win0_8.index t (1 : Fin 2) * 1024 + 1024; omega

/-- The k output after the launch's last point: the row projection of the arrays it was entered with. -/
theorem k_final (c : Dev nD) :
    (dat0 V c).arrAt 8 cfg0.N = rowProj (V c main_v0) (V c main_v4) (V c main_v8) :=
  (dat0 V c).arrAt_eq_of_cover 8 _ (fun t _ => k_flushed V c t) k_cover

/-! ## The value output -/

/-- What point t writes back to the v output is block t of the row projection of the arrays the launch is entered with. -/
theorem v_flushed (c : Dev nD) (t : Fin cfg0.N) :
    (dat0 V c).flushed 9 t
      = ((cfg0.win 9).blk t).view.read (Elt Ideal) (rowProj (V c main_v0) (V c main_v6) (V c main_v9)) := by
  show (cfg0.win 9).cut (grid0.coords t) ((dat0 V c).after 9 t) = _
  rw [after0_9]
  unfold out0_9
  rw [View.canon_unit_zero hz2]
  simp only [View.ld_unit_zero (S := S512x1024) hz2, View.ld_unit_zero (S := S1024x1024) hz2, View.ld_unit_zero (S := S1x1024) hz2]
  rw [pay4_eq]
  obtain ⟨x0, x1, w0, w1, b0, b1, o0, o1⟩ := idx_facts0_9 t
  funext j
  have hj0 : (j 0).val < 512 := (j 0).isLt
  have hj1 : (j 1).val < 1024 := (j 1).isLt
  have hr : win0_9.index t (0 : Fin 2) * 512 + (j 0).val < 32768 := by omega
  show k0_pay2 (F := Ideal) (iblk0 V c 0 t) (iblk0 V c 5 t) (iblk0 V c 6 t) (ix2 ⟨(j 0).val, hj0⟩ ⟨(j 1).val, hj1⟩)
    = rowProjAt (V c main_v0) (V c main_v6) (V c main_v9) ⟨win0_9.index t (0 : Fin 2) * 512 + 1 * (j 0).val, by omega⟩
        ⟨win0_9.index t (1 : Fin 2) * 1024 + 1 * (j 1).val, by omega⟩
  refine (proj_point (V c main_v0) (V c main_v6) (V c main_v9) (iblk0 V c 0 t) (iblk0 V c 5 t) (iblk0 V c 6 t)
    ⟨win0_9.index t (0 : Fin 2) * 512 + (j 0).val, hr⟩ ⟨(j 0).val, hj0⟩ ⟨(j 1).val, hj1⟩ ?_ ?_ ?_).trans ?_
  · intro d
    show V c main_v0 (((cfg0.win 0).blk t).view.emb (ix2 ⟨(j 0).val, hj0⟩ d)) = V c main_v0 _
    refine congrArg (V c main_v0) (funext fun a => Fin.ext ?_)
    match a with
    | ⟨0, _⟩ => show win0_0.index t (0 : Fin 2) * 512 + 1 * (j 0).val = win0_9.index t (0 : Fin 2) * 512 + (j 0).val; omega
    | ⟨1, _⟩ => show win0_0.index t (1 : Fin 2) * 1024 + 1 * d.val = d.val; omega
  · intro d
    show V c main_v6 (((cfg0.win 5).blk t).view.emb (ix2 d ⟨(j 1).val, hj1⟩)) = V c main_v6 _
    refine congrArg (V c main_v6) (funext fun a => Fin.ext ?_)
    match a with
    | ⟨0, _⟩ => show win0_5.index t (0 : Fin 2) * 1024 + 1 * d.val = d.val; omega
    | ⟨1, _⟩ => show win0_5.index t (1 : Fin 2) * 1024 + 1 * (j 1).val = (j 1).val; omega
  · show V c main_v9 (((cfg0.win 6).blk t).view.emb (ix2 (0 : Fin 1) ⟨(j 1).val, hj1⟩)) = V c main_v9 _
    refine congrArg (V c main_v9) (funext fun a => Fin.ext ?_)
    match a with
    | ⟨0, _⟩ => show win0_6.index t (0 : Fin 2) * 1 + 1 * 0 = 0; omega
    | ⟨1, _⟩ => show win0_6.index t (1 : Fin 2) * 1024 + 1 * (j 1).val = (j 1).val; omega
  · have e0 : (⟨win0_9.index t (0 : Fin 2) * 512 + (j 0).val, hr⟩ : Fin 32768) = ⟨win0_9.index t (0 : Fin 2) * 512 + 1 * (j 0).val, by omega⟩ :=
      Fin.ext (by show win0_9.index t (0 : Fin 2) * 512 + (j 0).val = win0_9.index t (0 : Fin 2) * 512 + 1 * (j 0).val; omega)
    have e1 : (⟨(j 1).val, hj1⟩ : Fin 1024) = ⟨win0_9.index t (1 : Fin 2) * 1024 + 1 * (j 1).val, by omega⟩ :=
      Fin.ext (by show (j 1).val = win0_9.index t (1 : Fin 2) * 1024 + 1 * (j 1).val; omega)
    rw [e0, e1]

/-- An index of the v output is in point t's block iff each coordinate is in the block's range on its axis. -/
theorem v_mem_blk (t : Fin cfg0.N) (i : S32768x1024.Idx) :
    i ∈ ((cfg0.win 9).blk t).view.set ↔ ∀ a : Fin 2, win0_9.index t a * S512x1024.size a ≤ (i a).val
      ∧ (i a).val < win0_9.index t a * S512x1024.size a + S512x1024.size a := by
  show i ∈ ((View.whole main_v10_2).slice (win0_9.rect t)).set ↔ _
  rw [View.set_slice_whole, Rect.mem_set_unit]
  exact Iff.rfl

/-- The 64 blocks of 512 rows cover the v output: row r is in the block of point r / 512. -/
theorem v_cover (i : S32768x1024.Idx) :
    ∃ t : Fin cfg0.N, (cfg0.win 9).flush t = true ∧ i ∈ ((cfg0.win 9).blk t).view.set := by
  have hi0 : (i 0).val < 32768 := (i 0).isLt
  have hi1 : (i 1).val < 1024 := (i 1).isLt
  obtain ⟨t, ht⟩ := idx_onto0_9 ⟨(i 0).val / 512, by omega⟩
  have q0 : win0_9.index t (0 : Fin 2) = (i 0).val / 512 := congrFun ht 0
  have q1 : win0_9.index t (1 : Fin 2) = 0 := congrFun ht 1
  refine ⟨t, flush0_9 t, ?_⟩
  rw [v_mem_blk]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 1024 ≤ (i 1).val ∧ (i 1).val < win0_9.index t (1 : Fin 2) * 1024 + 1024; omega

/-- The v output after the launch's last point: the row projection of the arrays it was entered with. -/
theorem v_final (c : Dev nD) :
    (dat0 V c).arrAt 9 cfg0.N = rowProj (V c main_v0) (V c main_v6) (V c main_v9) :=
  (dat0 V c).arrAt_eq_of_cover 9 _ (fun t _ => v_flushed V c t) v_cover

end Cert.KernelIdeal.Attn

end
-- ==== Proof.Glue.lean ====
/-
  The host operations between the launches, read back. Before the projection launch the activations are reshaped to
  [32768, 1024], each weight matrix is transposed (and its format changed, the identity on the extended reals) and
  each bias becomes a [1, 1024] row. Between the launches the three [32768, 1024] outputs are reshaped to
  [16, 2048, 1024]. After the attention launch its output is reshaped to [2, 8, 2048, 1024]. With the two launches'
  output arrays (the row projection; the per-head attention) this names the program's result as one term of the
  seven argument arrays.
-/
import proofs.«143048_j40295383171639_2_alg».proof.Proof.AttnRegion
import proofs.«143048_j40295383171639_2_alg».proof.Proof.ProjRegion
import Idealize.ShloMosaic.Lib.StableHlo.Run

set_option maxRecDepth 16384

noncomputable section

namespace Cert.KernelIdeal.Attn

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-! ## What the projection launch is entered with -/

/-- The activations as [32768, 1024] rows. -/
def rowsOf (x : S2x8x2048x1024.Idx → EReal) : S32768x1024.Idx → EReal :=
  shapeCast S32768x1024 x shapeCasts_S2x8x2048x1024_S32768x1024
/-- A weight matrix transposed: input feature by output feature. -/
def transposed (W : S1024x1024.Idx → EReal) : S1024x1024.Idx → EReal :=
  truncf (F := Ideal) .bf16 (transpose S1024x1024 [1, 0] W transposes_S1024x1024_S1024x1024_1_0) bitsLt_bf16_f32
/-- A bias as a [1, 1024] row. -/
def rowOf (b : S1024.Idx → EReal) : S1x1024.Idx → EReal :=
  shapeCast S1x1024 b shapeCasts_S1024_S1x1024

theorem entry_x (c : Dev nD) : V1 m ρ c main_v0 = rowsOf (m ((c : Thread nD τ).loc main_arg0)) := by
  show StableHlo.after hostOps0 (W0 m ρ c) (Proc.devRef .tc main_v0) = _
  after_results
  rfl
theorem entry_wq (c : Dev nD) : V1 m ρ c main_v2 = transposed (m ((c : Thread nD τ).loc main_arg1)) := by
  show StableHlo.after hostOps0 (W0 m ρ c) (Proc.devRef .tc main_v2) = _
  after_results
  rfl
theorem entry_wk (c : Dev nD) : V1 m ρ c main_v4 = transposed (m ((c : Thread nD τ).loc main_arg3)) := by
  show StableHlo.after hostOps0 (W0 m ρ c) (Proc.devRef .tc main_v4) = _
  after_results
  rfl
theorem entry_wv (c : Dev nD) : V1 m ρ c main_v6 = transposed (m ((c : Thread nD τ).loc main_arg5)) := by
  show StableHlo.after hostOps0 (W0 m ρ c) (Proc.devRef .tc main_v6) = _
  after_results
  rfl
theorem entry_bq (c : Dev nD) : V1 m ρ c main_v7 = rowOf (m ((c : Thread nD τ).loc main_arg2)) := by
  show StableHlo.after hostOps0 (W0 m ρ c) (Proc.devRef .tc main_v7) = _
  after_results
  rfl
theorem entry_bk (c : Dev nD) : V1 m ρ c main_v8 = rowOf (m ((c : Thread nD τ).loc main_arg4)) := by
  show StableHlo.after hostOps0 (W0 m ρ c) (Proc.devRef .tc main_v8) = _
  after_results
  rfl
theorem entry_bv (c : Dev nD) : V1 m ρ c main_v9 = rowOf (m ((c : Thread nD τ).loc main_arg6)) := by
  show StableHlo.after hostOps0 (W0 m ρ c) (Proc.devRef .tc main_v9) = _
  after_results
  rfl

/-! ## What the attention launch is entered with -/

/-- A [32768, 1024] array as 16 heads of 2048 rows. -/
def headsOf (y : S32768x1024.Idx → EReal) : S16x2048x1024.Idx → EReal :=
  shapeCast S16x2048x1024 y shapeCasts_S32768x1024_S16x2048x1024

/-- One projected array, per head, from the activations, a weight matrix and a bias. -/
def projHeads (x : S2x8x2048x1024.Idx → EReal) (W : S1024x1024.Idx → EReal) (b : S1024.Idx → EReal) : S16x2048x1024.Idx → EReal :=
  headsOf (rowProj (rowsOf x) (transposed W) (rowOf b))

theorem entry_q3 (c : Dev nD) :
    V3 m ρ c main_v11 = projHeads (m ((c : Thread nD τ).loc main_arg0)) (m ((c : Thread nD τ).loc main_arg1)) (m ((c : Thread nD τ).loc main_arg2)) := by
  have h : V3 m ρ c main_v11 = headsOf (W2 m ρ c (Proc.devRef .tc main_v10_0)) := by
    show StableHlo.after hostOps1 (W2 m ρ c) (Proc.devRef .tc main_v11) = _
    after_results
    rfl
  rw [h, (W2_arr m ρ c 7 : W2 m ρ c (Proc.devRef .tc main_v10_0) = _), q_final (V1 m ρ) c, entry_x, entry_wq, entry_bq]
  rfl
theorem entry_k3 (c : Dev nD) :
    V3 m ρ c main_v12 = projHeads (m ((c : Thread nD τ).loc main_arg0)) (m ((c : Thread nD τ).loc main_arg3)) (m ((c : Thread nD τ).loc main_arg4)) := by
  have h : V3 m ρ c main_v12 = headsOf (W2 m ρ c (Proc.devRef .tc main_v10_1)) := by
    show StableHlo.after hostOps1 (W2 m ρ c) (Proc.devRef .tc main_v12) = _
    after_results
    rfl
  rw [h, (W2_arr m ρ c 8 : W2 m ρ c (Proc.devRef .tc main_v10_1) = _), k_final (V1 m ρ) c, entry_x, entry_wk, entry_bk]
  rfl
theorem entry_v3 (c : Dev nD) :
    V3 m ρ c main_v13 = projHeads (m ((c : Thread nD τ).loc main_arg0)) (m ((c : Thread nD τ).loc main_arg5)) (m ((c : Thread nD τ).loc main_arg6)) := by
  have h : V3 m ρ c main_v13 = headsOf (W2 m ρ c (Proc.devRef .tc main_v10_2)) := by
    show StableHlo.after hostOps1 (W2 m ρ c) (Proc.devRef .tc main_v13) = _
    after_results
    rfl
  rw [h, (W2_arr m ρ c 9 : W2 m ρ c (Proc.devRef .tc main_v10_2) = _), v_final (V1 m ρ) c, entry_x, entry_wv, entry_bv]
  rfl

/-! ## The result -/

/-- The program's result buffer after the run: the per-head attention of the three projected arrays, reshaped to
    [2, 8, 2048, 1024]. -/
theorem result_read (c : Dev nD) :
    W5 m ρ c (Proc.devRef .tc main_v15)
      = shapeCast S2x8x2048x1024
          (headAttn (projHeads (m ((c : Thread nD τ).loc main_arg0)) (m ((c : Thread nD τ).loc main_arg1)) (m ((c : Thread nD τ).loc main_arg2)))
            (projHeads (m ((c : Thread nD τ).loc main_arg0)) (m ((c : Thread nD τ).loc main_arg3)) (m ((c : Thread nD τ).loc main_arg4)))
            (projHeads (m ((c : Thread nD τ).loc main_arg0)) (m ((c : Thread nD τ).loc main_arg5)) (m ((c : Thread nD τ).loc main_arg6))))
          shapeCasts_S16x2048x1024_S2x8x2048x1024 := by
  have h : W5 m ρ c (Proc.devRef .tc main_v15)
      = shapeCast S2x8x2048x1024 (W4 m ρ c (Proc.devRef .tc main_v14)) shapeCasts_S16x2048x1024_S2x8x2048x1024 := by
    show StableHlo.after hostOps2 (W4 m ρ c) (Proc.devRef .tc main_v15) = _
    after_results
    rfl
  rw [h, (W4_arr m ρ c 3 : W4 m ρ c (Proc.devRef .tc main_v14) = _), attn_final (V3 m ρ) c, entry_q3, entry_k3, entry_v3]

end Cert.KernelIdeal.Attn

end
-- ==== Proof.KernelIsSpec.lean ====
/-
  The idealized kernel's result is the specification. Row (8·b + h)·2048 + s of the [32768, 1024] view is row
  (b, h, s) of the activations, and row s of head 8·b + h of the [16, 2048, 1024] view; a transposed weight read at
  (d, e) is the weight at (e, d); a bias row read at (0, e) is the bias at e. So each projected array read per head
  is the linear layer of the specification, and the per-head attention of the three is the specification's result.
-/
import proofs.«143048_j40295383171639_2_alg».proof.Proof.Glue
import proofs.«143048_j40295383171639_2_alg».proof.Proof.Spec

set_option maxRecDepth 16384

noncomputable section

open scoped BigOperators

namespace Cert.KernelIdeal.Attn

open Cert.KernelIdeal Cert.KernelIdeal.Gen Idealize.ShloMosaic Idealize.ShloMosaic.TcCoe Idealize.ShloMosaic.ValueIdx
open Idealize.SL.Sem

/-- A projected array read at head 8·b + h, row s, column e is the linear layer at (b, h, s, e). -/
theorem projHeads_apply (x : S2x8x2048x1024.Idx → EReal) (W : S1024x1024.Idx → EReal) (bias : S1024.Idx → EReal)
    (b : Fin 2) (h : Fin 8) (s : Fin 2048) (e : Fin 1024) (hbh : 8 * b.val + h.val < 16) :
    projHeads x W bias (ix3 ⟨8 * b.val + h.val, hbh⟩ s e) = Cert.Attn.projAt x W bias b h s e := by
  unfold projHeads headsOf
  have hr : (8 * b.val + h.val) * 2048 + s.val < 32768 := by omega
  rw [shapeCast_apply _ _ _ (ix2 ⟨(8 * b.val + h.val) * 2048 + s.val, hr⟩ e) (by
    rw [Shape.rowMajor_val_two, Shape.rowMajor_val_three]
    show ((8 * b.val + h.val) * 2048 + s.val) * 1024 + e.val = ((8 * b.val + h.val) * 2048 + s.val) * 1024 + e.val
    rfl)]
  show rowProjAt (rowsOf x) (transposed W) (rowOf bias) ⟨(8 * b.val + h.val) * 2048 + s.val, hr⟩ e = _
  unfold rowProjAt Cert.Attn.projAt
  have hx : ∀ d : Fin 1024, rowsOf x (ix2 ⟨(8 * b.val + h.val) * 2048 + s.val, hr⟩ d) = x (ix4 b h s d) := fun d => by
    unfold rowsOf
    exact shapeCast_apply _ _ _ _ (by
      rw [Shape.rowMajor_val_four, Shape.rowMajor_val_two]
      show ((b.val * 8 + h.val) * 2048 + s.val) * 1024 + d.val = ((8 * b.val + h.val) * 2048 + s.val) * 1024 + d.val
      omega)
  have hw : ∀ d : Fin 1024, transposed W (ix2 d e) = W (ix2 e d) := fun d => by
    unfold transposed
    rw [truncf_apply]
    exact transpose_ix2_apply W _ d e
  have hb : rowOf bias (ix2 (0 : Fin 1) e) = bias (ix1 e) := by
    unfold rowOf
    exact shapeCast_a_1a_apply bias _ 0 e
  simp only [hx, hw, hb]

variable (m : (ℓ : Loc nD τ sig) → Buf (Elt Ideal) ℓ) (ρ : Dev nD → PrngReg)

/-- The result buffer after the run is the specification of the seven argument arrays as launched. -/
theorem kernel_value (c : Dev nD) :
    W5 m ρ c (Proc.devRef .tc main_v15)
      = Cert.Attn.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  rw [result_read]
  funext i
  obtain ⟨b, h, s, e, rfl⟩ : ∃ (b : Fin 2) (h : Fin 8) (s : Fin 2048) (e : Fin 1024), i = ix4 b h s e :=
    ⟨i 0, i 1, i 2, i 3, eq_ix4 i⟩
  have hbh : 8 * b.val + h.val < 16 := by omega
  rw [shapeCast_apply _ _ _ (ix3 ⟨8 * b.val + h.val, hbh⟩ s e) (by
    rw [Shape.rowMajor_val_three, Shape.rowMajor_val_four]
    show ((8 * b.val + h.val) * 2048 + s.val) * 1024 + e.val = ((b.val * 8 + h.val) * 2048 + s.val) * 1024 + e.val
    omega)]
  show headAttnAt _ _ _ ⟨8 * b.val + h.val, hbh⟩ s e = Cert.Attn.attendAt _ _ _ b h s e
  unfold headAttnAt Cert.Attn.attendAt Cert.Attn.scoreAt
  simp only [projHeads_apply]

end Cert.KernelIdeal.Attn

end
-- ==== Proof.Scale.lean ====
/-
  The attention scale. The kernel multiplies the scores by the single-precision word of 2⁻⁵; the reference
  divides 1 by the square root of 1024. Over the reals √1024 = 32, so the two scalars are the same number 1/32.
-/
import Idealize.ShloMosaic.PureOps.Ideal

noncomputable section

namespace Cert.Attn.Scale

open Idealize.ShloMosaic

/-- The word `0x44800000` denotes the real 1024 = 2¹⁰. -/
theorem ofBits_1024 : Ideal.ofBits .f32 0x44800000#32 = ((1024 : ℝ) : EReal) := by
  simp [Ideal.ofBits, Ideal.ieee, -EReal.coe_mul]; norm_num

/-- The word `0x3F800000` denotes the real 1. -/
theorem ofBits_one : Ideal.ofBits .f32 0x3F800000#32 = ((1 : ℝ) : EReal) := by
  simp [Ideal.ofBits, Ideal.ieee, -EReal.coe_mul]; norm_num

/-- The word `0x3D000000` denotes the real 1/32 = 2⁻⁵. -/
theorem ofBits_inv32 : Ideal.ofBits .f32 0x3D000000#32 = ((1 / 32 : ℝ) : EReal) := by
  simp [Ideal.ofBits, Ideal.ieee, -EReal.coe_mul]; norm_num

/-- √1024 = 32, because 1024 = 32². -/
theorem sqrt_1024 : Real.sqrt 1024 = 32 := by
  rw [show (1024 : ℝ) = 32 ^ 2 by norm_num]
  exact Real.sqrt_sq (by norm_num)

/-- 1 / √1024 is the kernel's scale word: both are 1/32. -/
theorem inv_sqrt_d :
    Ideal.div (Ideal.ofBits .f32 0x3F800000#32) (Ideal.sqrt (Ideal.ofBits .f32 0x44800000#32))
      = Ideal.ofBits .f32 0x3D000000#32 := by
  rw [ofBits_1024, ofBits_one, ofBits_inv32]
  have h : Ideal.sqrt ((1024 : ℝ) : EReal) = ((32 : ℝ) : EReal) := by
    show (if (1024 : ℝ) < 0 then (⊥ : EReal) else (Real.sqrt 1024 : EReal)) = _
    rw [if_neg (by norm_num), sqrt_1024]
  rw [h, Ideal.div_coe (by norm_num : (32 : ℝ) ≠ 0), ← EReal.coe_mul]
  norm_num

end Cert.Attn.Scale

end
-- ==== Proof.RefIsSpec.lean ====
/-
  The reference's result is the specification. Its twenty host operations, read one at a time at an index:
  a `dot_general` is the sum over its contracted axis, the two broadcasts of a bias read the bias at the last
  coordinate, and the scalar it multiplies the scores by, 1 / √1024, is the scale 2⁻⁵.
-/
import proofs.«143048_j40295383171639_2_alg».proof.Proof.Gen.ReferenceIdeal.Read
import proofs.«143048_j40295383171639_2_alg».proof.Proof.Spec
import proofs.«143048_j40295383171639_2_alg».proof.Proof.Scale

noncomputable section

open scoped BigOperators

namespace Cert.ReferenceIdeal.Attn

open Cert.ReferenceIdeal Cert.ReferenceIdeal.Read Idealize.ShloMosaic Idealize.ShloMosaic.ValueIdx Cert.Attn

/-- A linear layer of the reference at (b, h, s, e): x·Wᵀ + bias. (Stated for the query layer's stages; the key and
    value layers are the same operations on their own weights.) -/
theorem q_apply (x0 : (⟨S2x8x2048x1024, .f32⟩ : BufTy).Contents (Elt Ideal)) (x1 : (⟨S1024x1024, .f32⟩ : BufTy).Contents (Elt Ideal))
    (x2 : (⟨S1024, .f32⟩ : BufTy).Contents (Elt Ideal)) (b : Fin 2) (h : Fin 8) (s : Fin 2048) (e : Fin 1024) :
    val_main_v3 (F := Ideal) x0 x1 x2 (ix4 b h s e) = projAt x0 x1 x2 b h s e := by
  rw [val_main_v3_apply, val_main_v0_apply, val_main_v2_apply, val_main_v1_apply]
  have e1 : ∀ k : Fin 1024, lidx_main_v0 (ix4 b h s e) k = ix4 b h s k := fun k => funext fun a => by
    match a with | ⟨0, _⟩ => rfl | ⟨1, _⟩ => rfl | ⟨2, _⟩ => rfl | ⟨3, _⟩ => rfl
  have e2 : ∀ k : Fin 1024, ridx_main_v0 (ix4 b h s e) k = ix2 e k := fun k => funext fun a => by
    match a with | ⟨0, _⟩ => rfl | ⟨1, _⟩ => rfl
  have e3 : idx_main_v1 (idx_main_v2 (ix4 b h s e)) = ix1 e := funext fun a => by
    match a with | ⟨0, _⟩ => rfl
  simp only [e1, e2, e3]
  rfl

theorem k_apply (x0 : (⟨S2x8x2048x1024, .f32⟩ : BufTy).Contents (Elt Ideal)) (x3 : (⟨S1024x1024, .f32⟩ : BufTy).Contents (Elt Ideal))
    (x4 : (⟨S1024, .f32⟩ : BufTy).Contents (Elt Ideal)) (b : Fin 2) (h : Fin 8) (s : Fin 2048) (e : Fin 1024) :
    val_main_v7 (F := Ideal) x0 x3 x4 (ix4 b h s e) = projAt x0 x3 x4 b h s e := by
  rw [val_main_v7_apply, val_main_v4_apply, val_main_v6_apply, val_main_v5_apply]
  have e1 : ∀ k : Fin 1024, lidx_main_v4 (ix4 b h s e) k = ix4 b h s k := fun k => funext fun a => by
    match a with | ⟨0, _⟩ => rfl | ⟨1, _⟩ => rfl | ⟨2, _⟩ => rfl | ⟨3, _⟩ => rfl
  have e2 : ∀ k : Fin 1024, ridx_main_v4 (ix4 b h s e) k = ix2 e k := fun k => funext fun a => by
    match a with | ⟨0, _⟩ => rfl | ⟨1, _⟩ => rfl
  have e3 : idx_main_v5 (idx_main_v6 (ix4 b h s e)) = ix1 e := funext fun a => by
    match a with | ⟨0, _⟩ => rfl
  simp only [e1, e2, e3]
  rfl

theorem v_apply (x0 : (⟨S2x8x2048x1024, .f32⟩ : BufTy).Contents (Elt Ideal)) (x5 : (⟨S1024x1024, .f32⟩ : BufTy).Contents (Elt Ideal))
    (x6 : (⟨S1024, .f32⟩ : BufTy).Contents (Elt Ideal)) (b : Fin 2) (h : Fin 8) (s : Fin 2048) (e : Fin 1024) :
    val_main_v11 (F := Ideal) x0 x5 x6 (ix4 b h s e) = projAt x0 x5 x6 b h s e := by
  rw [val_main_v11_apply, val_main_v8_apply, val_main_v10_apply, val_main_v9_apply]
  have e1 : ∀ k : Fin 1024, lidx_main_v8 (ix4 b h s e) k = ix4 b h s k := fun k => funext fun a => by
    match a with | ⟨0, _⟩ => rfl | ⟨1, _⟩ => rfl | ⟨2, _⟩ => rfl | ⟨3, _⟩ => rfl
  have e2 : ∀ k : Fin 1024, ridx_main_v8 (ix4 b h s e) k = ix2 e k := fun k => funext fun a => by
    match a with | ⟨0, _⟩ => rfl | ⟨1, _⟩ => rfl
  have e3 : idx_main_v9 (idx_main_v10 (ix4 b h s e)) = ix1 e := funext fun a => by
    match a with | ⟨0, _⟩ => rfl
  simp only [e1, e2, e3]
  rfl

/-- The scalar the reference multiplies the scores by, 1 / √1024 broadcast to every entry, is the scale 2⁻⁵. -/
theorem scale_apply (i : S2x8x2048x2048.Idx) : val_main_v15 (F := Ideal) i = scale := by
  rw [val_main_v15_apply, val_main_v13_apply, val_main_v12_apply, val_main_cst_apply, val_main_cst_0_apply]
  exact Cert.Attn.Scale.inv_sqrt_d

/-- A scaled score of the reference at (b, h, s, t). -/
theorem score_apply (x0 : (⟨S2x8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (b : Fin 2) (h : Fin 8) (s t : Fin 2048) :
    val_main_v16 (F := Ideal) x0 x1 x2 x3 x4 (ix4 b h s t) = scoreAt (projAt x0 x1 x2) (projAt x0 x3 x4) b h s t := by
  rw [val_main_v16_apply, val_main_v14_apply, scale_apply]
  have e1 : ∀ k : Fin 1024, lidx_main_v14 (ix4 b h s t) k = ix4 b h s k := fun k => funext fun a => by
    match a with | ⟨0, _⟩ => rfl | ⟨1, _⟩ => rfl | ⟨2, _⟩ => rfl | ⟨3, _⟩ => rfl
  have e2 : ∀ k : Fin 1024, ridx_main_v14 (ix4 b h s t) k = ix4 b h t k := fun k => funext fun a => by
    match a with | ⟨0, _⟩ => rfl | ⟨1, _⟩ => rfl | ⟨2, _⟩ => rfl | ⟨3, _⟩ => rfl
  simp only [e1, e2, q_apply, k_apply]
  rfl

/-- The reference's result array is the specification of its seven arguments. -/
theorem ref_eq (x0 : (⟨S2x8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) :
    val_main_v17 (F := Ideal) x0 x1 x2 x3 x4 x5 x6 = result x0 x1 x2 x3 x4 x5 x6 := by
  funext i
  obtain ⟨b, h, s, e, rfl⟩ : ∃ (b : Fin 2) (h : Fin 8) (s : Fin 2048) (e : Fin 1024), i = ix4 b h s e :=
    ⟨i 0, i 1, i 2, i 3, eq_ix4 i⟩
  rw [val_main_v17_apply]
  have e1 : ∀ k : Fin 2048, lidx_main_v17 (ix4 b h s e) k = ix4 b h s k := fun k => funext fun a => by
    match a with | ⟨0, _⟩ => rfl | ⟨1, _⟩ => rfl | ⟨2, _⟩ => rfl | ⟨3, _⟩ => rfl
  have e2 : ∀ k : Fin 2048, ridx_main_v17 (ix4 b h s e) k = ix4 b h k e := fun k => funext fun a => by
    match a with | ⟨0, _⟩ => rfl | ⟨1, _⟩ => rfl | ⟨2, _⟩ => rfl | ⟨3, _⟩ => rfl
  simp only [e1, e2, score_apply, v_apply]
  rfl

end Cert.ReferenceIdeal.Attn

end
-- ==== Proof.lean ====
/-
  The kernel computes attention without a softmax in two launches: three linear layers q = x·Wqᵀ + bq,
  k = x·Wkᵀ + bk, v = x·Wvᵀ + bv over 64 tiles of 512 rows, then per head and tile of 512 query rows the product
  ((q·kᵀ)·c)·v with the scale c = 2⁻⁵. The reference computes the same three layers with einsums, the scores
  (q·kᵀ)·(1/√1024) and their product with v. On the extended reals a change of float format is the identity, a
  matrix product into a zero accumulator is the sum over the contracted axis, and 1/√1024 = 1/32 = 2⁻⁵, so both
  programs' results are one function of the seven arguments, entry (b, h, s, e) ↦
  Σ_t ((Σ_d q[b,h,s,d]·k[b,h,t,d])·c)·v[b,h,t,e]. The two sides apply the same operations in the same order, so no
  algebraic law beyond re-indexing the sums is used, and the inputs' finiteness is not needed.
  The three frames are the programs' runs with the results dropped; the idealization rewrote no operation.
-/
import proofs.«143048_j40295383171639_2_alg».proof.Defs
import proofs.«143048_j40295383171639_2_alg».proof.Proof.Gen.Kernel
import proofs.«143048_j40295383171639_2_alg».proof.Proof.Gen.Kernel.Skeleton
import proofs.«143048_j40295383171639_2_alg».proof.Proof.Gen.Kernel.Launch
import proofs.«143048_j40295383171639_2_alg».proof.Proof.Gen.Kernel.Points
import proofs.«143048_j40295383171639_2_alg».proof.Proof.Gen.Kernel.Frame
import proofs.«143048_j40295383171639_2_alg».proof.Proof.Gen.KernelIdeal
import proofs.«143048_j40295383171639_2_alg».proof.Proof.Gen.KernelIdeal.Skeleton
import proofs.«143048_j40295383171639_2_alg».proof.Proof.Gen.KernelIdeal.Launch
import proofs.«143048_j40295383171639_2_alg».proof.Proof.Gen.KernelIdeal.Points
import proofs.«143048_j40295383171639_2_alg».proof.Proof.Gen.KernelIdeal.Frame
import proofs.«143048_j40295383171639_2_alg».proof.Proof.Gen.ReferenceIdeal
import proofs.«143048_j40295383171639_2_alg».proof.Proof.Gen.Pre_finite_inputs
import proofs.«143048_j40295383171639_2_alg».proof.Proof.Gen.ReferenceIdeal.Run
import proofs.«143048_j40295383171639_2_alg».proof.Proof.Gen.ReferenceIdeal.Read
import proofs.«143048_j40295383171639_2_alg».proof.Proof.KernelRun
import proofs.«143048_j40295383171639_2_alg».proof.Proof.KernelIsSpec
import proofs.«143048_j40295383171639_2_alg».proof.Proof.RefIsSpec
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The idealized reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the seven arguments both idealized programs end with the specification of those
    arguments in their result buffers. -/
theorem algebraic : Cert.algebraic_KernelIdeal_ReferenceIdeal := by
  intro m ρ m' ρ' _ hagree
  refine ⟨fun c => Cert.Attn.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Attn.kernel_value m ρ c), (h c).2⟩)
      (Cert.KernelIdeal.Attn.run_result (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1,
      (hagree c).2.2.2.2.2.1, (hagree c).2.2.2.2.2.2]
    exact (Cert.ReferenceIdeal.Read.val_main_v17_eq _ _ _ _ _ _ _).trans (Cert.ReferenceIdeal.Attn.ref_eq _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
